-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x56x56 : Shape := ⟨4, ![32, 512, 56, 56]⟩
abbrev S_ : Shape := ⟨0, ![]⟩

class Facts : Prop where
  bcast_S_S32x512x56x56 : S_.BroadcastsInDim S32x512x56x56 (![] : Fin 0 → Fin S32x512x56x56.rank)
  reducesTo_S32x512x56x56_S_d0_1_2_3 : S32x512x56x56.ReducesTo [0, 1, 2, 3] S_
  h_S_ : 0 < S_.numel

variable [Facts]

def fn {F : FTy → Type} [FloatOps F] (main_arg0 : FVec F S32x512x56x56 .f32) : IVec S_ 1 :=
  let main_v0 : FVec F S32x512x56x56 .f32 := Host.absf main_arg0
  let main_cst : FVec F S_ .f32 := constant S_ .f32 0x7F800000#32
  let main_v1 : FVec F S32x512x56x56 .f32 := broadcastInDim S32x512x56x56 ![] bcast_S_S32x512x56x56 main_cst
  let main_v2 : IVec S32x512x56x56 1 := cmpf .olt main_v0 main_v1
  let main_c : IVec S_ 1 := constantI S_ 1 1#1
  let main_v3 : IVec S_ 1 := (fun x v => Host.reduce IntOp.andi x v reducesTo_S32x512x56x56_S_d0_1_2_3 h_S_) main_v2 main_c
  main_v3
-- ==== Kernel.lean ====
abbrev S32x512x56x56 : Shape := ⟨4, ![32, 512, 56, 56]⟩
abbrev S32x512x3136 : Shape := ⟨3, ![32, 512, 3136]⟩
abbrev S1x256x3136 : Shape := ⟨3, ![1, 256, 3136]⟩
abbrev S256x3136 : Shape := ⟨2, ![256, 3136]⟩
abbrev S64x4x3136 : Shape := ⟨3, ![64, 4, 3136]⟩
abbrev S64x3136 : Shape := ⟨2, ![64, 3136]⟩
abbrev S64x1x3136 : Shape := ⟨3, ![64, 1, 3136]⟩

abbrev nBuf : Space → Nat
  | .hbm => 4
  | .vmem => 4
  | .smem => 0
  | _ => 0

abbrev bufTy : (tb : Table) → Fin (tcTables nBuf tb) → BufTy
  | .hbm, ⟨0, _⟩ => ⟨S32x512x56x56, .f32⟩
  | .hbm, ⟨1, _⟩ => ⟨S32x512x3136, .f32⟩
  | .hbm, ⟨2, _⟩ => ⟨S32x512x3136, .f32⟩
  | .hbm, ⟨3, _⟩ => ⟨S32x512x56x56, .f32⟩
  | .local _ .vmem, ⟨0, _⟩ => ⟨S1x256x3136, .f32⟩
  | .local _ .vmem, ⟨1, _⟩ => ⟨S1x256x3136, .f32⟩
  | .local _ .vmem, ⟨2, _⟩ => ⟨S1x256x3136, .f32⟩
  | .local _ .vmem, ⟨3, _⟩ => ⟨S1x256x3136, .f32⟩
  | _, _ => ⟨S32x512x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x3136 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S32x512x56x56_S32x512x3136 : S32x512x56x56.ShapeCasts S32x512x3136
  inb_S1x256x3136_S1x256x3136_0_0_0 : ∀ a, (![0, 0, 0] : Fin 3 → Nat) a + S1x256x3136.size a ≤ S1x256x3136.size a
  h_S1x256x3136 : 0 < S1x256x3136.numel
  shapeCasts_S1x256x3136_S256x3136 : S1x256x3136.ShapeCasts S256x3136
  shapeCasts_S256x3136_S64x4x3136 : S256x3136.ShapeCasts S64x4x3136
  reduces_S64x4x3136_S64x3136 : S64x4x3136.Reduces [1] S64x3136
  shapeCasts_S64x3136_S64x1x3136 : S64x3136.ShapeCasts S64x1x3136
  broadcasts_S64x1x3136_S64x4x3136 : S64x1x3136.Broadcasts S64x4x3136
  shapeCasts_S64x4x3136_S256x3136 : S64x4x3136.ShapeCasts S256x3136
  shapeCasts_S256x3136_S1x256x3136 : S256x3136.ShapeCasts S1x256x3136
  shapeCasts_S32x512x3136_S32x512x56x56 : S32x512x3136.ShapeCasts S32x512x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3136.size a ≤ S32x512x3136.size a
  hwx0_0 : ∀ i : grid0.Coords, EltTy.bits .f32 = 32 ∨ (Rect.block (s := S32x512x3136) S1x256x3136.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x3136.size a ≤ S32x512x3136.size a
  hwx0_1 : ∀ i : grid0.Coords, EltTy.bits .f32 = 32 ∨ (Rect.block (s := S32x512x3136) S1x256x3136.size (cc0_transform_1 i) (hinb0_1 i)).WholeWords (EltTy.packing .f32)

variable [Facts₀]

abbrev win0_0 : Pipeline.Window sig grid0 :=
  Pipeline.Window.ofSpec (Memref.whole main_v0) S1x256x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x3136.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x512x56x56 : Shape := ⟨4, ![32, 512, 56, 56]⟩
abbrev S32x128x4x56x56 : Shape := ⟨5, ![32, 128, 4, 56, 56]⟩
abbrev S_ : Shape := ⟨0, ![]⟩
abbrev S32x128x56x56 : Shape := ⟨4, ![32, 128, 56, 56]⟩
abbrev S32x128x1x56x56 : Shape := ⟨5, ![32, 128, 1, 56, 56]⟩

abbrev nBuf : Space → Nat
  | .hbm => 11
  | .vmem => 0
  | .smem => 0
  | _ => 0

abbrev bufTy : (tb : Table) → Fin (tcTables nBuf tb) → BufTy
  | .hbm, ⟨0, _⟩ => ⟨S32x512x56x56, .f32⟩
  | .hbm, ⟨1, _⟩ => ⟨S32x128x4x56x56, .f32⟩
  | .hbm, ⟨2, _⟩ => ⟨S_, .f32⟩
  | .hbm, ⟨3, _⟩ => ⟨S32x128x56x56, .f32⟩
  | .hbm, ⟨4, _⟩ => ⟨S32x128x1x56x56, .f32⟩
  | .hbm, ⟨5, _⟩ => ⟨S32x128x4x56x56, .f32⟩
  | .hbm, ⟨6, _⟩ => ⟨S32x128x4x56x56, .i1⟩
  | .hbm, ⟨7, _⟩ => ⟨S_, .f32⟩
  | .hbm, ⟨8, _⟩ => ⟨S32x128x4x56x56, .f32⟩
  | .hbm, ⟨9, _⟩ => ⟨S32x128x4x56x56, .f32⟩
  | .hbm, ⟨10, _⟩ => ⟨S32x512x56x56, .f32⟩
  | _, _ => ⟨S32x512x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  shapeCasts_S32x512x56x56_S32x128x4x56x56 : S32x512x56x56.ShapeCasts S32x128x4x56x56
  reducesTo_S32x128x4x56x56_S32x128x56x56_d2 : S32x128x4x56x56.ReducesTo [2] S32x128x56x56
  h_S_ : 0 < S_.numel
  bcast_S32x128x56x56_S32x128x1x56x56_0_1_3_4 : S32x128x56x56.BroadcastsInDim S32x128x1x56x56 (![0, 1, 3, 4] : Fin 4 → Fin S32x128x1x56x56.rank)
  bcast_S32x128x1x56x56_S32x128x4x56x56_0_1_2_3_4 : S32x128x1x56x56.BroadcastsInDim S32x128x4x56x56 (![0, 1, 2, 3, 4] : Fin 5 → Fin S32x128x4x56x56.rank)
  bcast_S_S32x128x4x56x56 : S_.BroadcastsInDim S32x128x4x56x56 (![] : Fin 0 → Fin S32x128x4x56x56.rank)
  shapeCasts_S32x128x4x56x56_S32x512x56x56 : S32x128x4x56x56.ShapeCasts S32x512x56x56

variable [Facts₀]

class Facts : Prop extends Facts₀ where

variable [Facts]
-- ==== Proof.GroupWinners.lean ====
/-
  Winner-take-all within channel groups, as one function of the input array.

  The input is an array x[b, c, h, w] of extended reals with 32 × 512 × 56 × 56 entries.  The 512 channels are cut into
  128 consecutive groups of 4.  Entry (b, c, h, w) of the result keeps x[b, c, h, w] when it equals the largest of
  the four values x[b, c', h, w], c' running over the group of c, and is 0 otherwise.  The largest value is the fold of
  `max` over the four group members starting from −∞; `max` is commutative and associative, so the order in which a
  program visits the four members does not matter, and nothing here needs the inputs to be finite.

  Both programs work on a flattened picture of the array: the kernel merges the two spatial axes into one of 3136
  positions, the reference splits the channel axis into (group, member).  `winners3` is the function on the merged
  picture, `winners4` the same function carried to the four-axis array by the two reshapes, and `winners4_apply`
  reads it at an index.
-/
import Idealize.ShloMosaic.PureOps.Ideal
import Idealize.ShloMosaic.PureOps.Ideal.Laws
import Idealize.ShloMosaic.Lib.ValueIdx
import Idealize.ShloMosaic.Lib.Pipeline.Value

noncomputable section

namespace Cert.GroupWinners

open Idealize.ShloMosaic Idealize.ShloMosaic.ValueIdx

/-- The array with the spatial axes merged: [32, 512, 3136]. -/
abbrev Arr3 : Shape := ⟨3, ![32, 512, 3136]⟩
/-- The array as the programs receive and return it: [32, 512, 56, 56]. -/
abbrev Arr4 : Shape := ⟨4, ![32, 512, 56, 56]⟩

/-- −∞, the value every maximum starts from. -/
abbrev bottom : Ideal .f32 := Ideal.ofBits .f32 0xFF800000#32
/-- The value a loser is replaced by. -/
abbrev zero : Ideal .f32 := Ideal.ofBits .f32 0x00000000#32

/-- The largest of four values: the fold of `max` from −∞. -/
def max4 (f : Fin 4 → Ideal .f32) : Ideal .f32 := (Finset.univ : Finset (Fin 4)).fold max bottom f

/-- A value is kept when it equals the group's maximum and replaced by 0 otherwise. -/
def keep (v top : Ideal .f32) : Ideal .f32 := Scalar.select (FloatOps.cmpf (F := Ideal) .oeq v top) v zero

/-- Member `k` of the group of four consecutive channels that channel `c` lies in. -/
def mate (c : Fin 512) (k : Fin 4) : Fin 512 := ⟨4 * (c.val / 4) + k.val, by omega⟩

/-- The result at batch `b`, channel `c`, merged position `q`. -/
def winnersAt (x : Arr3.Idx → Ideal .f32) (b : Fin 32) (c : Fin 512) (q : Fin 3136) : Ideal .f32 :=
  keep (x (ix3 b c q)) (max4 fun k => x (ix3 b (mate c k) q))

/-- The result on the merged picture. -/
def winners3 (x : Arr3.Idx → Ideal .f32) : Arr3.Idx → Ideal .f32 := fun i => winnersAt x (i 0) (i 1) (i 2)

theorem winners3_apply (x : Arr3.Idx → Ideal .f32) (b : Fin 32) (c : Fin 512) (q : Fin 3136) :
    winners3 x (ix3 b c q) = winnersAt x b c q := rfl

theorem casts43 : Arr4.ShapeCasts Arr3 := by decide
theorem casts34 : Arr3.ShapeCasts Arr4 := by decide

/-- The result on the four-axis array: merge the spatial axes, take the winners, split the axes again. -/
def winners4 (x : Arr4.Idx → Ideal .f32) : Arr4.Idx → Ideal .f32 :=
  shapeCast Arr4 (winners3 (shapeCast Arr3 x casts43)) casts34

/-- Position (h, w) of the 56 × 56 picture is merged position 56 h + w. -/
def merged (h w : Fin 56) : Fin 3136 := ⟨56 * h.val + w.val, by omega⟩

/-- The merged picture at (b, c, 56 h + w) is the array at (b, c, h, w). -/
theorem merge_apply (x : Arr4.Idx → Ideal .f32) (b : Fin 32) (c : Fin 512) (h w : Fin 56) :
    shapeCast Arr3 x casts43 (ix3 b c (merged h w)) = x (ix4 b c h w) :=
  shapeCast_apply x casts43 _ _ (by
    rw [Shape.rowMajor_val_four, Shape.rowMajor_val_three]
    show ((b.val * 512 + c.val) * 56 + h.val) * 56 + w.val = (b.val * 512 + c.val) * 3136 + (56 * h.val + w.val)
    omega)

/-- The result read at an index of the four-axis array: the entry is kept when it is the largest of its group's four
    entries at the same batch and position. -/
theorem winners4_apply (x : Arr4.Idx → Ideal .f32) (b : Fin 32) (c : Fin 512) (h w : Fin 56) :
    winners4 x (ix4 b c h w) = keep (x (ix4 b c h w)) (max4 fun k => x (ix4 b (mate c k) h w)) := by
  unfold winners4
  refine (shapeCast_apply _ casts34 (ix4 b c h w) (ix3 b c (merged h w)) ?_).trans ?_
  · rw [Shape.rowMajor_val_four, Shape.rowMajor_val_three]
    show (b.val * 512 + c.val) * 3136 + (56 * h.val + w.val) = ((b.val * 512 + c.val) * 56 + h.val) * 56 + w.val
    omega
  · rw [winners3_apply]
    unfold winnersAt
    rw [merge_apply]
    exact congrArg (keep _) (congrArg max4 (funext fun k => merge_apply x b (mate c k) h w))

end Cert.GroupWinners

end
-- ==== Proof.KernelBlock.lean ====
/-
  What the kernel body computes on one block.

  A block is 256 consecutive channel rows of one batch entry, each row the 3136 merged positions: [1, 256, 3136].  The
  body regroups the 256 rows as 64 groups of 4 (row p is member p mod 4 of group p div 4), takes along each group the
  fold of `max` from −∞ at every position, spreads that maximum back over the group's four rows, keeps an entry where
  it equals the maximum and writes 0 elsewhere, and lays the rows out as a block again.  Read at row p and position
  q the stored block is therefore `keep` of the loaded entry against the largest of the four entries of p's group at
  q (`stored_apply`).
-/
import proofs.«168648_j20779051778567_1_alg».proof.Proof.Gen.KernelIdeal.Skeleton
import proofs.«168648_j20779051778567_1_alg».proof.Proof.GroupWinners
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx Cert.GroupWinners

/-- Member `k` of the group of four consecutive rows that row `p` of a block lies in. -/
def rowMate (p : Fin 256) (k : Fin 4) : Fin 256 := ⟨4 * (p.val / 4) + k.val, by omega⟩

/-- The group a row lies in, and its place there. -/
def groupOf (p : Fin 256) : Fin 64 := ⟨p.val / 4, by omega⟩
def placeOf (p : Fin 256) : Fin 4 := ⟨p.val % 4, Nat.mod_lt _ (by decide)⟩

/-- A block regrouped as 64 groups of 4 rows: member `r` of group `g` is row 4 g + r. -/
theorem grouped_apply (x0 : FVec Ideal S1x256x3136 .f32) (h1 : S1x256x3136.ShapeCasts S256x3136)
    (h2 : S256x3136.ShapeCasts S64x4x3136) (g : Fin 64) (r : Fin 4) (q : Fin 3136) :
    shapeCast S64x4x3136 (shapeCast S256x3136 x0 h1) h2 (ix3 g r q)
      = x0 (ix3 (0 : Fin 1) (⟨4 * g.val + r.val, by omega⟩ : Fin 256) q) := by
  refine (shapeCast_apply _ h2 (ix3 g r q) (ix2 (⟨4 * g.val + r.val, by omega⟩ : Fin 256) q) ?_).trans ?_
  · rw [Shape.rowMajor_val_two, Shape.rowMajor_val_three]
    show (4 * g.val + r.val) * 3136 + q.val = (g.val * 4 + r.val) * 3136 + q.val
    omega
  · exact shapeCast_1ab_ab_apply x0 h1 _ q

/-- Along a group the reduction is the largest of the group's four members at the position. -/
theorem groupMax_apply (v : FVec Ideal S64x4x3136 .f32) (hr : S64x4x3136.Reduces [1] S64x3136) (g : Fin 64) (q : Fin 3136) :
    multiReduction .maximumf [1] S64x3136 v 0xFF800000#32 hr (.inl rfl) rfl (ix2 g q) = max4 fun k => v (ix3 g k q) := by
  refine (Ideal.multiReduction_maximumf_single v 0xFF800000#32 hr (.inl rfl) rfl (ix2 g q)).trans ?_
  unfold max4
  refine congrArg (fun f => Finset.fold max (Ideal.ofBits .f32 0xFF800000#32) f (Finset.univ : Finset (Fin 4))) ?_
  funext k
  refine congrArg v ?_
  funext c; apply Fin.ext
  fin_cases c <;> rfl

/-- The group maxima given a unit member axis and spread over the four members: every member reads its group's. -/
theorem spread_apply (z : FVec Ideal S64x3136 .f32) (h3 : S64x3136.ShapeCasts S64x1x3136)
    (h4 : S64x1x3136.Broadcasts S64x4x3136) (g : Fin 64) (r : Fin 4) (q : Fin 3136) :
    broadcastTo S64x4x3136 (shapeCast S64x1x3136 z h3) h4 (ix3 g r q) = z (ix2 g q) := by
  refine (broadcastTo_apply _ h4 (ix3 g r q) (ix3 g (0 : Fin 1) q) (fun a => ?_)).trans ?_
  · match a with
    | ⟨0, _⟩ => show g.val = if (64 : Nat) = 1 then 0 else g.val; rw [if_neg (by decide)]
    | ⟨1, _⟩ => show 0 = if (1 : Nat) = 1 then 0 else r.val; rw [if_pos rfl]
    | ⟨2, _⟩ => show q.val = if (3136 : Nat) = 1 then 0 else q.val; rw [if_neg (by decide)]
  · refine shapeCast_apply z h3 _ _ ?_
    rw [Shape.rowMajor_val_two, Shape.rowMajor_val_three]
    show g.val * 3136 + q.val = (g.val * 1 + 0) * 3136 + q.val
    omega

/-- The groups laid out as a block again: row `p` reads member p mod 4 of group p div 4. -/
theorem ungrouped_apply (u : FVec Ideal S64x4x3136 .f32) (h5 : S64x4x3136.ShapeCasts S256x3136)
    (h6 : S256x3136.ShapeCasts S1x256x3136) (p : Fin 256) (q : Fin 3136) :
    shapeCast S1x256x3136 (shapeCast S256x3136 u h5) h6 (ix3 (0 : Fin 1) p q) = u (ix3 (groupOf p) (placeOf p) q) := by
  refine (shapeCast_ab_1ab_apply _ h6 0 p q).trans ?_
  refine shapeCast_apply u h5 _ _ ?_
  rw [Shape.rowMajor_val_three, Shape.rowMajor_val_two]
  show (p.val / 4 * 4 + p.val % 4) * 3136 + q.val = p.val * 3136 + q.val
  omega

variable [Facts]

/-- The block the body stores, read at row `p` and position `q`. -/
theorem stored_apply (x0 : Vec Ideal S1x256x3136 .f32) (p : Fin 256) (q : Fin 3136) :
    k0_pay1 (F := Ideal) x0 (ix3 (0 : Fin 1) p q)
      = keep (x0 (ix3 (0 : Fin 1) p q)) (max4 fun k => x0 (ix3 (0 : Fin 1) (rowMate p k) q)) := by
  unfold k0_pay1
  refine (ungrouped_apply _ _ _ p q).trans ?_
  have hp : (⟨4 * (groupOf p).val + (placeOf p).val, by have := (groupOf p).isLt; have := (placeOf p).isLt; omega⟩ : Fin 256) = p :=
    Fin.ext (by show 4 * (p.val / 4) + p.val % 4 = p.val; omega)
  simp only [select_apply, cmpf_apply, broadcast_apply, spread_apply, grouped_apply]
  rw [hp]
  refine congrArg (fun top => Scalar.select (FloatOps.cmpf (F := Ideal) (φ := .f32) .oeq (x0 (ix3 (0 : Fin 1) p q)) top)
    (x0 (ix3 (0 : Fin 1) p q)) zero) ?_
  refine (groupMax_apply _ _ (groupOf p) q).trans ?_
  exact congrArg max4 (funext fun k => grouped_apply x0 _ _ (groupOf p) k q)

end Cert.KernelIdeal.Block

end
-- ==== Proof.KernelArray.lean ====
/-
  From the blocks the kernel writes to the array it returns.

  The kernel first merges the two spatial axes of its input (a reshape to [32, 512, 3136]); grid point (b, s) of the
  32 × 2 grid then loads block (b, s, 0) of that array — batch entry b, channel rows 256 s … 256 s + 255, every
  position —, and writes the body's result back to the same block of the output array; the output array is finally
  reshaped to [32, 512, 56, 56].  A group of four consecutive channels never straddles two blocks (256 is a multiple
  of 4), so what a point writes is the block of `winners3` of the merged input (`written_block`).  The 64 blocks tile
  the array (`covered`), hence the output array is `winners3` of the merged input (`output_array`), and the
  returned array is `winners4` of the argument (`run`).
-/
import proofs.«168648_j20779051778567_1_alg».proof.Proof.Gen.KernelIdeal.Frame
import proofs.«168648_j20779051778567_1_alg».proof.Proof.GroupWinners
import proofs.«168648_j20779051778567_1_alg».proof.Proof.KernelBlock
import Idealize.ShloMosaic.Lib.Pipeline.Value
import Idealize.ShloMosaic.Lib.StableHlo.Run
import Idealize.ShloMosaic.Lib.ValueIdx

noncomputable section

namespace Cert.KernelIdeal.Whole

open Cert.KernelIdeal Cert.KernelIdeal.Gen Cert.KernelIdeal.Block Cert.GroupWinners
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- One point, over plain variables: when the loaded block `x0` is the array `X` read through an embedding `e` that
    shifts the batch coordinate by `n0`, the channel row by `256 n1` and leaves the position, the stored block is
    `winners3 X` read through `e`.  The group of row 256 n1 + p is rows 256 n1 + 4 (p div 4) + k, all inside the block. -/
theorem point_apply (X : S32x512x3136.Idx → Ideal .f32) (x0 : Vec Ideal S1x256x3136 .f32) (n0 n1 n2 : Nat)
    (hn0 : n0 ≤ 31) (hn1 : n1 ≤ 1) (hn2 : n2 = 0) (e : S1x256x3136.Idx → S32x512x3136.Idx)
    (he0 : ∀ y, (e y 0).val = n0 * 1 + 1 * (y 0).val) (he1 : ∀ y, (e y 1).val = n1 * 256 + 1 * (y 1).val)
    (he2 : ∀ y, (e y 2).val = n2 * 3136 + 1 * (y 2).val)
    (hx : ∀ y, x0 y = X (e y)) (y : S1x256x3136.Idx) :
    k0_pay1 (F := Ideal) x0 y = winners3 X (e y) := by
  obtain ⟨u, p, q, rfl⟩ : ∃ (u : Fin 1) (p : Fin 256) (q : Fin 3136), y = ix3 u p q := ⟨y 0, y 1, y 2, eq_ix3 y⟩
  obtain rfl : u = 0 := Subsingleton.elim _ _
  refine (stored_apply x0 p q).trans ?_
  have h1 : x0 (ix3 (0 : Fin 1) p q)
      = X (ix3 (e (ix3 (0 : Fin 1) p q) 0) (e (ix3 (0 : Fin 1) p q) 1) (e (ix3 (0 : Fin 1) p q) 2)) :=
    (hx _).trans (congrArg X (eq_ix3 _))
  have h2 : ∀ k : Fin 4, x0 (ix3 (0 : Fin 1) (rowMate p k) q)
      = X (ix3 (e (ix3 (0 : Fin 1) p q) 0) (mate (e (ix3 (0 : Fin 1) p q) 1) k) (e (ix3 (0 : Fin 1) p q) 2)) := fun k =>
    (hx _).trans (congrArg X (funext fun a => Fin.ext (by
      match a with
      | ⟨0, _⟩ =>
        show (e (ix3 (0 : Fin 1) (rowMate p k) q) 0).val = (e (ix3 (0 : Fin 1) p q) 0).val
        rw [he0, he0]
      | ⟨1, _⟩ =>
        show (e (ix3 (0 : Fin 1) (rowMate p k) q) 1).val = 4 * ((e (ix3 (0 : Fin 1) p q) 1).val / 4) + k.val
        rw [he1, he1]
        show n1 * 256 + 1 * (4 * (p.val / 4) + k.val) = 4 * ((n1 * 256 + 1 * p.val) / 4) + k.val
        omega
      | ⟨2, _⟩ =>
        show (e (ix3 (0 : Fin 1) (rowMate p k) q) 2).val = (e (ix3 (0 : Fin 1) p q) 2).val
        rw [he2, he2])))
  rw [h1, funext h2]
  rfl

/-- The printed index maps over the 64 grid points: the two windows move together, and a point's block index is
    (b, s, 0) with b ≤ 31 and s ≤ 1. -/
theorem idx_facts : ∀ t : Fin cfg0.N, win0_0.index t (0 : Fin 3) = win0_1.index t (0 : Fin 3)
    ∧ win0_0.index t (1 : Fin 3) = win0_1.index t (1 : Fin 3)
    ∧ win0_0.index t (2 : Fin 3) = win0_1.index t (2 : Fin 3)
    ∧ win0_1.index t (0 : Fin 3) ≤ 31 ∧ win0_1.index t (1 : Fin 3) ≤ 1 ∧ win0_1.index t (2 : Fin 3) = 0 :=
  (by decide +kernel : ∀ t : Fin grid0.N, _)

/-- Every block index (b, s, 0) is some point's. -/
theorem idx_onto : ∀ (q0 : Fin 32) (q1 : Fin 2), ∃ t : Fin cfg0.N, win0_1.index t = ![q0.val, q1.val, 0] :=
  (by decide +kernel : ∀ (q0 : Fin 32) (q1 : Fin 2), ∃ t : Fin grid0.N, win0_1.index t = ![q0.val, q1.val, 0])

/-- The array the region finds behind its input window: the argument with the spatial axes merged. -/
theorem entered (c : Dev nD) : (V m c main_v0 : S32x512x3136.Idx → Ideal .f32)
    = shapeCast S32x512x3136 (m ((c : Thread nD τ).loc main_arg0)) shapeCasts_S32x512x56x56_S32x512x3136 := by
  show StableHlo.after hostOps0 (fun b => m (c, b)) (Proc.devRef .tc main_v0) = _
  after_results
  rfl

/-- What point `t` writes back is block `t` of the winners of the merged input. -/
theorem written_block (c : Dev nD) (t : Fin cfg0.N) :
    (dats m 0 c).flushed 1 t = ((cfg0.win 1).blk t).view.read (Elt Ideal) (winners3 (V m c main_v0)) := by
  show (cfg0.win 1).cut (grid0.coords t) ((dats m 0 c).after 1 t) = _
  rw [after0_1]
  unfold out0_1
  rw [View.canon_unit_zero hz]
  simp only [View.ld_unit_zero (S := S1x256x3136) hz]
  obtain ⟨e0, e1, e2, e3, e4, e5⟩ := idx_facts t
  funext j
  show k0_pay1 (F := Ideal) (iblk m c 0 t) j = winners3 (V m c main_v0) (((cfg0.win 1).blk t).view.emb j)
  refine point_apply (V m c main_v0) (iblk m c 0 t) (win0_1.index t (0 : Fin 3)) (win0_1.index t (1 : Fin 3))
    (win0_1.index t (2 : Fin 3)) e3 e4 e5 (fun y => ((cfg0.win 1).blk t).view.emb y)
    (fun y => rfl) (fun y => rfl) (fun y => rfl) (fun y => ?_) j
  show V m c main_v0 (((cfg0.win 0).blk t).view.emb y) = V m c main_v0 (((cfg0.win 1).blk t).view.emb y)
  refine congrArg (V m c main_v0) (funext fun a => Fin.ext ?_)
  match a with
  | ⟨0, _⟩ => show win0_0.index t (0 : Fin 3) * 1 + 1 * (y 0).val = win0_1.index t (0 : Fin 3) * 1 + 1 * (y 0).val; rw [e0]
  | ⟨1, _⟩ => show win0_0.index t (1 : Fin 3) * 256 + 1 * (y 1).val = win0_1.index t (1 : Fin 3) * 256 + 1 * (y 1).val; rw [e1]
  | ⟨2, _⟩ => show win0_0.index t (2 : Fin 3) * 3136 + 1 * (y 2).val = win0_1.index t (2 : Fin 3) * 3136 + 1 * (y 2).val; rw [e2]

/-- An index of the output array lies in point `t`'s block iff each coordinate lies in the block's range on its axis. -/
theorem mem_blk (t : Fin cfg0.N) (i : S32x512x3136.Idx) :
    i ∈ ((cfg0.win 1).blk t).view.set ↔ ∀ a : Fin 3, win0_1.index t a * S1x256x3136.size a ≤ (i a).val
      ∧ (i a).val < win0_1.index t a * S1x256x3136.size a + S1x256x3136.size a := by
  show i ∈ ((View.whole main_v1).slice (win0_1.rect t)).set ↔ _
  rw [View.set_slice_whole, Rect.mem_set_unit]
  exact Iff.rfl

/-- The blocks tile the output array: index (b, c, q) lies in the block of the point with block index (b, c div 256, 0). -/
theorem covered (i : S32x512x3136.Idx) :
    ∃ t : Fin cfg0.N, (cfg0.win 1).flush t = true ∧ i ∈ ((cfg0.win 1).blk t).view.set := by
  have hi0 : (i 0).val < 32 := (i 0).isLt
  have hi1 : (i 1).val < 512 := (i 1).isLt
  have hi2 : (i 2).val < 3136 := (i 2).isLt
  obtain ⟨t, ht⟩ := idx_onto ⟨(i 0).val, hi0⟩ ⟨(i 1).val / 256, by omega⟩
  have q0 : win0_1.index t (0 : Fin 3) = (i 0).val := congrFun ht 0
  have q1 : win0_1.index t (1 : Fin 3) = (i 1).val / 256 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 256 ≤ (i 1).val ∧ (i 1).val < win0_1.index t (1 : Fin 3) * 256 + 256; omega
  | ⟨2, _⟩ => show win0_1.index t (2 : Fin 3) * 3136 ≤ (i 2).val ∧ (i 2).val < win0_1.index t (2 : Fin 3) * 3136 + 3136; omega

/-- So the output array ends holding the winners of the merged input. -/
theorem output_array (c : Dev nD) : (dats m 0 c).arrAt 1 cfg0.N = winners3 (V m c main_v0) :=
  (dats m 0 c).arrAt_eq_of_cover 1 (winners3 (V m c main_v0)) (fun t _ => written_block m c t) covered

/-- The array the program returns — the output array with the spatial axes split again — is the winners of the
    argument. -/
theorem returned (c : Dev nD) : Pipeline.afterTail₀ cfgs (dats m) 0 (V0 m) [hostOps1] c main_v2
    = winners4 (m ((c : Thread nD τ).loc main_arg0)) := by
  unfold Pipeline.afterTail₀
  show StableHlo.after hostOps1 _ (Proc.devRef .tc main_v2) = _
  after_results
  have hA : Pipeline.withArrays (cfgs 0).spec c (V0 m c) (fun w => (dats m 0 c).arrAt w (cfgs 0).N) (Proc.devRef .tc main_v1)
      = winners3 (shapeCast S32x512x3136 (m ((c : Thread nD τ).loc main_arg0)) shapeCasts_S32x512x56x56_S32x512x3136) :=
    (Pipeline.withArrays_arr spec0 launch0.win.arr_inj c (V0 m c) (fun w => (dats m 0 c).arrAt w cfg0.N) 1).trans
      ((output_array m c).trans (congrArg winners3 (entered m c)))
  rw [hA]
  rfl

/-- The run, read: every weakly fair execution of the program terminates with the returned array at the winners of the
    argument and the argument unchanged. -/
theorem run : θ_run defs (onTc (τ := τ) (main (F := Ideal))) ⟨m, fun _ => 0, ρ⟩ fun r => ∀ c : Dev nD,
      r.2.mem ((c : Thread nD τ).loc main_v2) = winners4 (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (returned m c),
        ((h c).2 main_arg0 (Pipeline.mem_restRefs_of main_arg0 (by decide) (by decide))).trans (W_main_arg0 m (dats m) c)⟩)
    (run_main m ρ)

end Cert.KernelIdeal.Whole

end
-- ==== Proof.ReferenceValue.lean ====
/-
  What the reference computes, read at an index.

  The reference splits the channel axis into (group, member): [32, 128, 4, 56, 56], channel c being member c mod 4 of
  group c div 4.  It reduces along the member axis with `max` from −∞, spreads the maximum back over the four
  members, keeps an entry where it equals the maximum and writes 0 elsewhere, and joins the two axes again.  Read at
  (b, c, h, w) its result is `keep` of the input entry against the largest of the four entries of c's group at the
  same batch and position: the function `winners4` of the input.
-/
import proofs.«168648_j20779051778567_1_alg».proof.Proof.Gen.ReferenceIdeal.Read
import proofs.«168648_j20779051778567_1_alg».proof.Proof.GroupWinners
import Idealize.ShloMosaic.Lib.ValueIdx
import Idealize.ShloMosaic.PureOps.Ideal.Laws

noncomputable section

namespace Cert.ReferenceIdeal.Winners

open Cert.ReferenceIdeal Cert.ReferenceIdeal.Facts₀ Cert.ReferenceIdeal.Read Idealize.ShloMosaic Idealize.ShloMosaic.ValueIdx Cert.GroupWinners

variable [Facts]

/-- Channel 4 g + r as a channel index. -/
def channel (g : Fin 128) (r : Fin 4) : Fin 512 := ⟨4 * g.val + r.val, by omega⟩

/-- The split picture at (b, g, r, h, w) is the input at (b, 4 g + r, h, w). -/
theorem split_apply (x : (⟨S32x512x56x56, .f32⟩ : BufTy).Contents (Elt Ideal)) (b : Fin 32) (g : Fin 128) (r : Fin 4) (h w : Fin 56) :
    val_main_v0 (F := Ideal) x (ix5 b g r h w) = x (ix4 b (channel g r) h w) := by
  refine (val_main_v0_apply (F := Ideal) x _).trans (congrArg x ?_)
  funext a; apply Fin.ext
  match a with
  | ⟨0, _⟩ => show ((((b.val * 128 + g.val) * 4 + r.val) * 56 + h.val) * 56 + w.val) / 1605632 = b.val; omega
  | ⟨1, _⟩ => show ((((b.val * 128 + g.val) * 4 + r.val) * 56 + h.val) * 56 + w.val) / 3136 % 512 = 4 * g.val + r.val; omega
  | ⟨2, _⟩ => show ((((b.val * 128 + g.val) * 4 + r.val) * 56 + h.val) * 56 + w.val) / 56 % 56 = h.val; omega
  | ⟨3, _⟩ => show ((((b.val * 128 + g.val) * 4 + r.val) * 56 + h.val) * 56 + w.val) % 56 = w.val; omega

theorem reduces : S32x128x4x56x56.Reduces [2] S32x128x56x56 := by decide

/-- The reduction along the member axis, at (b, g, h, w), is the largest of the group's four entries there. -/
theorem reduced_apply (x : (⟨S32x512x56x56, .f32⟩ : BufTy).Contents (Elt Ideal)) (b : Fin 32) (g : Fin 128) (h w : Fin 56) :
    val_main_v1 (F := Ideal) x (ix4 b g h w) = max4 fun k => x (ix4 b (channel g k) h w) := by
  unfold val_main_v1
  refine (Host.reduce_eq_fold_single (FloatOps.maximumf (F := Ideal) (φ := .f32))
    (val_main_v0 (F := Ideal) x : S32x128x4x56x56.Idx → Ideal .f32) (val_main_cst (F := Ideal) : S_.Idx → Ideal .f32)
    reducesTo_S32x128x4x56x56_S32x128x56x56_d2 reduces h_S_ (ix4 b g h w)).trans ?_
  unfold max4
  show Finset.fold max bottom (fun k : Fin 4 => val_main_v0 (F := Ideal) x (reduces.lift (ix4 b g h w) k)) Finset.univ = _
  refine congrArg (fun f => Finset.fold max bottom f (Finset.univ : Finset (Fin 4))) (funext fun k => ?_)
  refine Eq.trans (congrArg (val_main_v0 (F := Ideal) x) ?_) (split_apply x b g k h w)
  funext c; apply Fin.ext
  fin_cases c <;> rfl

/-- The maximum spread back over the members: every member reads its group's. -/
theorem top_apply (x : (⟨S32x512x56x56, .f32⟩ : BufTy).Contents (Elt Ideal)) (b : Fin 32) (g : Fin 128) (r : Fin 4) (h w : Fin 56) :
    val_main_v3 (F := Ideal) x (ix5 b g r h w) = max4 fun k => x (ix4 b (channel g k) h w) := by
  refine (val_main_v3_apply (F := Ideal) x _).trans ((val_main_v2_apply (F := Ideal) x _).trans ?_)
  refine Eq.trans (congrArg (val_main_v1 (F := Ideal) x) ?_) (reduced_apply x b g h w)
  funext a; apply Fin.ext
  match a with
  | ⟨0, _⟩ => rfl
  | ⟨1, _⟩ => rfl
  | ⟨2, _⟩ => rfl
  | ⟨3, _⟩ => rfl

/-- The group of a channel and its place in it. -/
def groupOf (c : Fin 512) : Fin 128 := ⟨c.val / 4, by omega⟩
def placeOf (c : Fin 512) : Fin 4 := ⟨c.val % 4, Nat.mod_lt _ (by decide)⟩

/-- The reference's result at (b, c, h, w). -/
theorem result_apply (x : (⟨S32x512x56x56, .f32⟩ : BufTy).Contents (Elt Ideal)) (b : Fin 32) (c : Fin 512) (h w : Fin 56) :
    val_main_v7 (F := Ideal) x (ix4 b c h w) = keep (x (ix4 b c h w)) (max4 fun k => x (ix4 b (mate c k) h w)) := by
  have e7 : idx_main_v7 (ix4 b c h w) = ix5 b (groupOf c) (placeOf c) h w := by
    funext a; apply Fin.ext
    match a with
    | ⟨0, _⟩ => show (((b.val * 512 + c.val) * 56 + h.val) * 56 + w.val) / 1605632 = b.val; omega
    | ⟨1, _⟩ => show (((b.val * 512 + c.val) * 56 + h.val) * 56 + w.val) / 12544 % 128 = c.val / 4; omega
    | ⟨2, _⟩ => show (((b.val * 512 + c.val) * 56 + h.val) * 56 + w.val) / 3136 % 4 = c.val % 4; omega
    | ⟨3, _⟩ => show (((b.val * 512 + c.val) * 56 + h.val) * 56 + w.val) / 56 % 56 = h.val; omega
    | ⟨4, _⟩ => show (((b.val * 512 + c.val) * 56 + h.val) * 56 + w.val) % 56 = w.val; omega
  have hc : channel (groupOf c) (placeOf c) = c := Fin.ext (by show 4 * (c.val / 4) + c.val % 4 = c.val; omega)
  refine (val_main_v7_apply (F := Ideal) x _).trans ?_
  rw [e7]
  show Scalar.select (FloatOps.cmpf (F := Ideal) (φ := .f32) .oeq (val_main_v0 (F := Ideal) x (ix5 b (groupOf c) (placeOf c) h w))
      (val_main_v3 (F := Ideal) x (ix5 b (groupOf c) (placeOf c) h w)))
    (val_main_v0 (F := Ideal) x (ix5 b (groupOf c) (placeOf c) h w)) zero = _
  rw [split_apply, top_apply, hc]
  rfl

/-- So the reference's result is the winners of its input. -/
theorem result_eq (x : (⟨S32x512x56x56, .f32⟩ : BufTy).Contents (Elt Ideal)) : val_main_v7 (F := Ideal) x = winners4 x := by
  funext i
  obtain ⟨b, c, h, w, rfl⟩ : ∃ (b : Fin 32) (c : Fin 512) (h w : Fin 56), i = ix4 b c h w := ⟨i 0, i 1, i 2, i 3, eq_ix4 i⟩
  rw [result_apply, winners4_apply]

end Cert.ReferenceIdeal.Winners

end
-- ==== Proof.lean ====
/-
  Channel-group winner-take-all: the kernel against its reference.

  Input x[b, c, h, w], 32 × 512 × 56 × 56 extended reals; the 512 channels form 128 consecutive groups of 4.  Both
  programs return the array that keeps x[b, c, h, w] where it equals the largest of the four values of c's group at
  (b, ·, h, w) — the fold of `max` from −∞ — and holds 0 elsewhere (`Cert.GroupWinners.winners4`).

  The kernel merges (h, w) into one axis of 3136 positions, walks a 32 × 2 grid of blocks of 256 channel rows, and on
  each block regroups the rows in fours, reduces, compares and selects; since 256 is a multiple of 4 a group never
  leaves its block, so each written block is a block of the winners of the merged input, the 64 blocks tile the
  output, and splitting the merged axis again gives `winners4` of the argument (Proof/KernelBlock.lean,
  Proof/KernelArray.lean).  The reference splits the channel axis into (group, member), reduces along the member
  axis, compares, selects and joins the axes again: read at an index this is the same function
  (Proof/ReferenceValue.lean).  Only commutativity and associativity of `max` are used, so the precondition that the
  inputs are finite is never opened.  The three frames are the generated ones (the reference's is its generated run
  with the result dropped); the idealization rewrote nothing, so what it must preserve is `True`.
-/
import proofs.«168648_j20779051778567_1_alg».proof.Defs
import proofs.«168648_j20779051778567_1_alg».proof.Proof.Gen.Kernel
import proofs.«168648_j20779051778567_1_alg».proof.Proof.Gen.Kernel.Skeleton
import proofs.«168648_j20779051778567_1_alg».proof.Proof.Gen.Kernel.Launch
import proofs.«168648_j20779051778567_1_alg».proof.Proof.Gen.Kernel.Points
import proofs.«168648_j20779051778567_1_alg».proof.Proof.Gen.Kernel.Frame
import proofs.«168648_j20779051778567_1_alg».proof.Proof.Gen.KernelIdeal
import proofs.«168648_j20779051778567_1_alg».proof.Proof.Gen.KernelIdeal.Skeleton
import proofs.«168648_j20779051778567_1_alg».proof.Proof.Gen.KernelIdeal.Launch
import proofs.«168648_j20779051778567_1_alg».proof.Proof.Gen.KernelIdeal.Points
import proofs.«168648_j20779051778567_1_alg».proof.Proof.Gen.KernelIdeal.Frame
import proofs.«168648_j20779051778567_1_alg».proof.Proof.Gen.ReferenceIdeal
import proofs.«168648_j20779051778567_1_alg».proof.Proof.Gen.ReferenceIdeal.Run
import proofs.«168648_j20779051778567_1_alg».proof.Proof.Gen.ReferenceIdeal.Read
import proofs.«168648_j20779051778567_1_alg».proof.Proof.Gen.Pre_finite_inputs
import proofs.«168648_j20779051778567_1_alg».proof.Proof.GroupWinners
import proofs.«168648_j20779051778567_1_alg».proof.Proof.KernelBlock
import proofs.«168648_j20779051778567_1_alg».proof.Proof.KernelArray
import proofs.«168648_j20779051778567_1_alg».proof.Proof.ReferenceValue
import Idealize.ShloMosaic.Adequacy
import Idealize.ShloMosaic.Init

noncomputable section

namespace Cert.Proof

open Idealize.ShloMosaic Idealize.SL.Sem

/-- The word-level kernel terminates without a fault and leaves its argument as it was. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- And the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization changed no operation of the kernel. -/
theorem preserves : Cert.preserves_Kernel_KernelIdeal := trivial

/-- From arguments that agree, both programs end with the winners of the argument. -/
theorem algebraic : Cert.algebraic_KernelIdeal_ReferenceIdeal := by
  intro m ρ m' ρ' _ hagree
  refine ⟨fun c => Cert.GroupWinners.winners4 (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  exact (Cert.ReferenceIdeal.Read.val_main_v7_eq _).trans
    ((Cert.ReferenceIdeal.Winners.result_eq _).trans (congrArg Cert.GroupWinners.winners4 (hagree c)))

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
